-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S64x64 : Shape := ⟨2, ![64, 64]⟩
abbrev S64 : Shape := ⟨1, ![64]⟩
abbrev S256x256 : Shape := ⟨2, ![256, 256]⟩
abbrev S256 : Shape := ⟨1, ![256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x64x256x256 .f32) (main_arg1 : FVec F S64x64 .f32) (main_arg2 : FVec F S64 .f32) (main_arg3 : FVec F S256x256 .f32) (main_arg4 : FVec F S256 .f32) (main_arg5 : FVec F S256x256 .f32) (main_arg6 : FVec F S256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S8x64x256x256 : Shape := ⟨4, ![8, 64, 256, 256]⟩
abbrev S64x64 : Shape := ⟨2, ![64, 64]⟩
abbrev S64 : Shape := ⟨1, ![64]⟩
abbrev S256x256 : Shape := ⟨2, ![256, 256]⟩
abbrev S256 : Shape := ⟨1, ![256]⟩
abbrev S8x1x64 : Shape := ⟨3, ![8, 1, 64]⟩
abbrev S8x1x256 : Shape := ⟨3, ![8, 1, 256]⟩
abbrev S1x64x256x256 : Shape := ⟨4, ![1, 64, 256, 256]⟩
abbrev S1x1x64 : Shape := ⟨3, ![1, 1, 64]⟩
abbrev S1x1x256 : Shape := ⟨3, ![1, 1, 256]⟩
abbrev S64x256x256 : Shape := ⟨3, ![64, 256, 256]⟩
abbrev S64x256 : Shape := ⟨2, ![64, 256]⟩
abbrev S8x64 : Shape := ⟨2, ![8, 64]⟩
abbrev S8x256 : Shape := ⟨2, ![8, 256]⟩
abbrev S1x64 : Shape := ⟨2, ![1, 64]⟩
abbrev S_ : Shape := ⟨0, ![]⟩
abbrev S1x256 : Shape := ⟨2, ![1, 256]⟩
abbrev S8x128 : Shape := ⟨2, ![8, 128]⟩
abbrev S1x64x256x128 : Shape := ⟨4, ![1, 64, 256, 128]⟩
abbrev S1x128 : Shape := ⟨2, ![1, 128]⟩
abbrev S128 : Shape := ⟨1, ![128]⟩
abbrev S64x1 : Shape := ⟨2, ![64, 1]⟩
abbrev S64x256x1 : Shape := ⟨3, ![64, 256, 1]⟩
abbrev S1x1x128 : Shape := ⟨3, ![1, 1, 128]⟩
abbrev S64x256x128 : Shape := ⟨3, ![64, 256, 128]⟩

abbrev nBuf : Space → Nat
  | .hbm => 50
  | .vmem => 14
  | .smem => 0
  | _ => 0

abbrev bufTy : (tb : Table) → Fin (tcTables nBuf tb) → BufTy
  | .hbm, ⟨0, _⟩ => ⟨S8x64x256x256, .f32⟩
  | .hbm, ⟨1, _⟩ => ⟨S64x64, .f32⟩
  | .hbm, ⟨2, _⟩ => ⟨S64, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8x1x64, .f32⟩
  | .hbm, ⟨8, _⟩ => ⟨S8x1x256, .f32⟩
  | .hbm, ⟨9, _⟩ => ⟨S8x1x256, .f32⟩
  | .hbm, ⟨10, _⟩ => ⟨S8x64, .f32⟩
  | .hbm, ⟨11, _⟩ => ⟨S8x256, .f32⟩
  | .hbm, ⟨12, _⟩ => ⟨S8x256, .f32⟩
  | .hbm, ⟨13, _⟩ => ⟨S8x64, .f32⟩
  | .hbm, ⟨14, _⟩ => ⟨S1x64, .f32⟩
  | .hbm, ⟨15, _⟩ => ⟨S8x64, .f32⟩
  | .hbm, ⟨16, _⟩ => ⟨S8x64, .f32⟩
  | .hbm, ⟨17, _⟩ => ⟨S8x64, .f32⟩
  | .hbm, ⟨18, _⟩ => ⟨S8x64, .f32⟩
  | .hbm, ⟨19, _⟩ => ⟨S_, .f32⟩
  | .hbm, ⟨20, _⟩ => ⟨S8x64, .f32⟩
  | .hbm, ⟨21, _⟩ => ⟨S8x64, .f32⟩
  | .hbm, ⟨22, _⟩ => ⟨S_, .f32⟩
  | .hbm, ⟨23, _⟩ => ⟨S8x64, .f32⟩
  | .hbm, ⟨24, _⟩ => ⟨S8x64, .f32⟩
  | .hbm, ⟨25, _⟩ => ⟨S8x256, .f32⟩
  | .hbm, ⟨26, _⟩ => ⟨S1x256, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S8x256, .f32⟩
  | .hbm, ⟨31, _⟩ => ⟨S_, .f32⟩
  | .hbm, ⟨32, _⟩ => ⟨S8x256, .f32⟩
  | .hbm, ⟨33, _⟩ => ⟨S8x256, .f32⟩
  | .hbm, ⟨34, _⟩ => ⟨S_, .f32⟩
  | .hbm, ⟨35, _⟩ => ⟨S8x256, .f32⟩
  | .hbm, ⟨36, _⟩ => ⟨S8x256, .f32⟩
  | .hbm, ⟨37, _⟩ => ⟨S8x256, .f32⟩
  | .hbm, ⟨38, _⟩ => ⟨S1x256, .f32⟩
  | .hbm, ⟨39, _⟩ => ⟨S8x256, .f32⟩
  | .hbm, ⟨40, _⟩ => ⟨S8x256, .f32⟩
  | .hbm, ⟨41, _⟩ => ⟨S8x256, .f32⟩
  | .hbm, ⟨42, _⟩ => ⟨S8x256, .f32⟩
  | .hbm, ⟨43, _⟩ => ⟨S_, .f32⟩
  | .hbm, ⟨44, _⟩ => ⟨S8x256, .f32⟩
  | .hbm, ⟨45, _⟩ => ⟨S8x256, .f32⟩
  | .hbm, ⟨46, _⟩ => ⟨S_, .f32⟩
  | .hbm, ⟨47, _⟩ => ⟨S8x256, .f32⟩
  | .hbm, ⟨48, _⟩ => ⟨S8x256, .f32⟩
  | .hbm, ⟨49, _⟩ => ⟨S8x64x256x256, .f32⟩
  | .local _ .vmem, ⟨0, _⟩ => ⟨S1x64x256x256, .f32⟩
  | .local _ .vmem, ⟨1, _⟩ => ⟨S1x64x256x256, .f32⟩
  | .local _ .vmem, ⟨2, _⟩ => ⟨S1x1x64, .f32⟩
  | .local _ .vmem, ⟨3, _⟩ => ⟨S1x1x64, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S8x64, .f32⟩
  | .local _ .vmem, ⟨9, _⟩ => ⟨S8x256, .f32⟩
  | .local _ .vmem, ⟨10, _⟩ => ⟨S8x128, .f32⟩
  | .local _ .vmem, ⟨11, _⟩ => ⟨S8x128, .f32⟩
  | .local _ .vmem, ⟨12, _⟩ => ⟨S1x64x256x128, .f32⟩
  | .local _ .vmem, ⟨13, _⟩ => ⟨S1x64x256x128, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 2], ![false, false]⟩

def k1_off1 (i : grid1.Coords) : Fin 2 → Nat :=
  let arg0 : BitVec 32 := BitVec.ofNat 32 (i 0).val
  let v0 : Index := Scalar.indexCast arg0
  let c0 : Index := 0#32
  ![v0.toNat, 0]
def k1_off2 (i : grid1.Coords) : Fin 2 → Nat :=
  let arg0 : BitVec 32 := BitVec.ofNat 32 (i 0).val
  let v3 : Index := Scalar.indexCast arg0
  let c0_0 : Index := 0#32
  ![v3.toNat, 0]
def k1_off3 (i : grid1.Coords) : Fin 2 → Nat :=
  let arg0 : BitVec 32 := BitVec.ofNat 32 (i 0).val
  let v6 : Index := Scalar.indexCast arg0
  let c0_1 : Index := 0#32
  ![v6.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage1_0 : Fin 1 → Memref sig .tc .vmem S8x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x64x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x64x256x256_S1x64x256x256_0_0_0_0 : ∀ a, (![0, 0, 0, 0] : Fin 4 → Nat) a + S1x64x256x256.size a ≤ S1x64x256x256.size a
  h_S1x64x256x256 : 0 < S1x64x256x256.numel
  shapeCasts_S1x64x256x256_S64x256x256 : S1x64x256x256.ShapeCasts S64x256x256
  reduces_S64x256x256_S64x256 : S64x256x256.Reduces [2] S64x256
  reduces_S64x256_S64 : S64x256.Reduces [1] S64
  reduces_S64x256x256_S256x256 : S64x256x256.Reduces [0] S256x256
  reduces_S256x256_S256 : S256x256.Reduces [1] S256
  reduces_S256x256_S256_2 : S256x256.Reduces [0] S256
  shapeCasts_S64_S1x1x64 : S64.ShapeCasts S1x1x64
  inb_S1x1x64_S1x1x64_0_0_0 : ∀ a, (![0, 0, 0] : Fin 3 → Nat) a + S1x1x64.size a ≤ S1x1x64.size a
  h_S1x1x64 : 0 < S1x1x64.numel
  shapeCasts_S256_S1x1x256 : S256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S8x1x64_S8x64 : S8x1x64.ShapeCasts S8x64
  shapeCasts_S8x1x256_S8x256 : S8x1x256.ShapeCasts S8x256
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  h_S1x64 : 0 < S1x64.numel
  shapeCasts_S1x64_S64 : S1x64.ShapeCasts S64
  h_S1x256 : 0 < S1x256.numel
  shapeCasts_S1x256_S256 : S1x256.ShapeCasts S256
  h_S1x128 : 0 < S1x128.numel
  shapeCasts_S1x128_S128 : S1x128.ShapeCasts S128
  shapeCasts_S64_S64x1 : S64.ShapeCasts S64x1
  shapeCasts_S256_S1x256 : S256.ShapeCasts S1x256
  broadcasts_S64x1_S64x256 : S64x1.Broadcasts S64x256
  broadcasts_S1x256_S64x256 : S1x256.Broadcasts S64x256
  shapeCasts_S64x256_S64x256x1 : S64x256.ShapeCasts S64x256x1
  shapeCasts_S128_S1x1x128 : S128.ShapeCasts S1x1x128
  broadcasts_S64x256x1_S64x256x128 : S64x256x1.Broadcasts S64x256x128
  broadcasts_S1x1x128_S64x256x128 : S1x1x128.Broadcasts S64x256x128
  inb_S1x64x256x128_S1x64x256x128_0_0_0_0 : ∀ a, (![0, 0, 0, 0] : Fin 4 → Nat) a + S1x64x256x128.size a ≤ S1x64x256x128.size a
  h_S1x64x256x128 : 0 < S1x64x256x128.numel
  shapeCasts_S1x64x256x128_S64x256x128 : S1x64x256x128.ShapeCasts S64x256x128
  shapeCasts_S64x256x128_S1x64x256x128 : S64x256x128.ShapeCasts S1x64x256x128
  dot_S8x64_S64x64_S8x64_1_1_0_0_n_n_wf : DotDims.WF S8x64 S64x64 S8x64 [1] [1] [0] [0] [] []
  dot_S8x256_S256x256_S8x256_1_1_0_0_n_n_wf : DotDims.WF S8x256 S256x256 S8x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x256.size a ≤ S8x64x256x256.size a
  hwx0_0 : ∀ i : grid0.Coords, EltTy.bits .f32 = 32 ∨ (Rect.block (s := S8x64x256x256) S1x64x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S8x1x64.size a
  hwx0_1 : ∀ i : grid0.Coords, EltTy.bits .f32 = 32 ∨ (Rect.block (s := S8x1x64) S1x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x256.size a
  hwx0_2 : ∀ i : grid0.Coords, EltTy.bits .f32 = 32 ∨ (Rect.block (s := S8x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S8x1x256.size a
  hwx0_3 : ∀ i : grid0.Coords, EltTy.bits .f32 = 32 ∨ (Rect.block (s := S8x1x256) S1x1x256.size (cc0_transform_3 i) (hinb0_3 i)).WholeWords (EltTy.packing .f32)
  hrank1 : 0 < grid1.rank
  k1_off1_inb : ∀ i : grid1.Coords, ∀ a, (k1_off1 i) a + S1x64.size a ≤ S8x64.size a
  k1_off2_inb : ∀ i : grid1.Coords, ∀ a, (k1_off2 i) a + S1x256.size a ≤ S8x256.size a
  k1_off3_inb : ∀ i : grid1.Coords, ∀ a, (k1_off3 i) a + S1x128.size a ≤ S8x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x64.size a ≤ S8x64.size a
  hwx1_0 : ∀ i : grid1.Coords, EltTy.bits .f32 = 32 ∨ (Rect.block (s := S8x64) S8x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S8x256.size a
  hwx1_1 : ∀ i : grid1.Coords, EltTy.bits .f32 = 32 ∨ (Rect.block (s := S8x256) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S8x256.size a
  hwx1_2 : ∀ i : grid1.Coords, EltTy.bits .f32 = 32 ∨ (Rect.block (s := S8x256) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x256x128.size a ≤ S8x64x256x256.size a
  hwx1_3 : ∀ i : grid1.Coords, EltTy.bits .f32 = 32 ∨ (Rect.block (s := S8x64x256x256) S1x64x256x128.size (cc1_transform_3 i) (hinb1_3 i)).WholeWords (EltTy.packing .f32)

variable [Facts₀]

def dot_S8x64_S64x64_S8x64_1_1_0_0_n_n : DotDims S8x64 S64x64 S8x64 where
  lhsContracting := [1]
  rhsContracting := [1]
  lhsNonContracting := [0]
  rhsNonContracting := [0]
  lhsBatch := []
  rhsBatch := []
  wf := dot_S8x64_S64x64_S8x64_1_1_0_0_n_n_wf
def dot_S8x256_S256x256_S8x256_1_1_0_0_n_n : DotDims S8x256 S256x256 S8x256 where
  lhsContracting := [1]
  rhsContracting := [1]
  lhsNonContracting := [0]
  rhsNonContracting := [0]
  lhsBatch := []
  rhsBatch := []
  wf := dot_S8x256_S256x256_S8x256_1_1_0_0_n_n_wf

abbrev win0_0 : Pipeline.Window sig grid0 :=
  Pipeline.Window.ofSpec (Memref.whole main_arg0) S1x64x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S8x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v23) S8x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x64x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x64x256x256 : Shape := ⟨4, ![8, 64, 256, 256]⟩
abbrev S64x64 : Shape := ⟨2, ![64, 64]⟩
abbrev S64 : Shape := ⟨1, ![64]⟩
abbrev S256x256 : Shape := ⟨2, ![256, 256]⟩
abbrev S256 : Shape := ⟨1, ![256]⟩
abbrev S_ : Shape := ⟨0, ![]⟩
abbrev S8x64 : Shape := ⟨2, ![8, 64]⟩
abbrev S1x64 : Shape := ⟨2, ![1, 64]⟩
abbrev S8x256 : Shape := ⟨2, ![8, 256]⟩
abbrev S1x256 : Shape := ⟨2, ![1, 256]⟩
abbrev S8x64x1x1 : Shape := ⟨4, ![8, 64, 1, 1]⟩
abbrev S8x1x256x1 : Shape := ⟨4, ![8, 1, 256, 1]⟩
abbrev S8x64x256x1 : Shape := ⟨4, ![8, 64, 256, 1]⟩
abbrev S8x1x1x256 : Shape := ⟨4, ![8, 1, 1, 256]⟩

abbrev nBuf : Space → Nat
  | .hbm => 67
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S64x64, .f32⟩
  | .hbm, ⟨2, _⟩ => ⟨S64, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S8x64, .f32⟩
  | .hbm, ⟨9, _⟩ => ⟨S_, .f32⟩
  | .hbm, ⟨10, _⟩ => ⟨S8x64, .f32⟩
  | .hbm, ⟨11, _⟩ => ⟨S8x64, .f32⟩
  | .hbm, ⟨12, _⟩ => ⟨S8x64, .f32⟩
  | .hbm, ⟨13, _⟩ => ⟨S1x64, .f32⟩
  | .hbm, ⟨14, _⟩ => ⟨S8x64, .f32⟩
  | .hbm, ⟨15, _⟩ => ⟨S8x64, .f32⟩
  | .hbm, ⟨16, _⟩ => ⟨S8x64, .f32⟩
  | .hbm, ⟨17, _⟩ => ⟨S8x64, .f32⟩
  | .hbm, ⟨18, _⟩ => ⟨S_, .f32⟩
  | .hbm, ⟨19, _⟩ => ⟨S8x64, .f32⟩
  | .hbm, ⟨20, _⟩ => ⟨S8x64, .f32⟩
  | .hbm, ⟨21, _⟩ => ⟨S_, .f32⟩
  | .hbm, ⟨22, _⟩ => ⟨S8x64, .f32⟩
  | .hbm, ⟨23, _⟩ => ⟨S8x64, .f32⟩
  | .hbm, ⟨24, _⟩ => ⟨S_, .f32⟩
  | .hbm, ⟨25, _⟩ => ⟨S8x256, .f32⟩
  | .hbm, ⟨26, _⟩ => ⟨S_, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S1x256, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S8x256, .f32⟩
  | .hbm, ⟨35, _⟩ => ⟨S_, .f32⟩
  | .hbm, ⟨36, _⟩ => ⟨S8x256, .f32⟩
  | .hbm, ⟨37, _⟩ => ⟨S8x256, .f32⟩
  | .hbm, ⟨38, _⟩ => ⟨S_, .f32⟩
  | .hbm, ⟨39, _⟩ => ⟨S8x256, .f32⟩
  | .hbm, ⟨40, _⟩ => ⟨S8x256, .f32⟩
  | .hbm, ⟨41, _⟩ => ⟨S_, .f32⟩
  | .hbm, ⟨42, _⟩ => ⟨S8x256, .f32⟩
  | .hbm, ⟨43, _⟩ => ⟨S_, .f32⟩
  | .hbm, ⟨44, _⟩ => ⟨S8x256, .f32⟩
  | .hbm, ⟨45, _⟩ => ⟨S8x256, .f32⟩
  | .hbm, ⟨46, _⟩ => ⟨S8x256, .f32⟩
  | .hbm, ⟨47, _⟩ => ⟨S1x256, .f32⟩
  | .hbm, ⟨48, _⟩ => ⟨S8x256, .f32⟩
  | .hbm, ⟨49, _⟩ => ⟨S8x256, .f32⟩
  | .hbm, ⟨50, _⟩ => ⟨S8x256, .f32⟩
  | .hbm, ⟨51, _⟩ => ⟨S8x256, .f32⟩
  | .hbm, ⟨52, _⟩ => ⟨S_, .f32⟩
  | .hbm, ⟨53, _⟩ => ⟨S8x256, .f32⟩
  | .hbm, ⟨54, _⟩ => ⟨S8x256, .f32⟩
  | .hbm, ⟨55, _⟩ => ⟨S_, .f32⟩
  | .hbm, ⟨56, _⟩ => ⟨S8x256, .f32⟩
  | .hbm, ⟨57, _⟩ => ⟨S8x256, .f32⟩
  | .hbm, ⟨58, _⟩ => ⟨S8x64x1x1, .f32⟩
  | .hbm, ⟨59, _⟩ => ⟨S8x1x256x1, .f32⟩
  | .hbm, ⟨60, _⟩ => ⟨S8x64x256x1, .f32⟩
  | .hbm, ⟨61, _⟩ => ⟨S8x64x256x1, .f32⟩
  | .hbm, ⟨62, _⟩ => ⟨S8x64x256x1, .f32⟩
  | .hbm, ⟨63, _⟩ => ⟨S8x1x1x256, .f32⟩
  | .hbm, ⟨64, _⟩ => ⟨S8x64x256x256, .f32⟩
  | .hbm, ⟨65, _⟩ => ⟨S8x64x256x256, .f32⟩
  | .hbm, ⟨66, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  reducesTo_S8x64x256x256_S8x64_d2_3 : S8x64x256x256.ReducesTo [2, 3] S8x64
  h_S_ : 0 < S_.numel
  bcast_S_S8x64 : S_.BroadcastsInDim S8x64 (![] : Fin 0 → Fin S8x64.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  reducesTo_S8x64x256x256_S8x256_d1_3 : S8x64x256x256.ReducesTo [1, 3] S8x256
  bcast_S_S8x256 : S_.BroadcastsInDim S8x256 (![] : Fin 0 → Fin S8x256.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  reducesTo_S8x64x256x256_S8x256_d1_2 : S8x64x256x256.ReducesTo [1, 2] S8x256
  bcast_S8x64_S8x64x1x1_0_1 : S8x64.BroadcastsInDim S8x64x1x1 (![0, 1] : Fin 2 → Fin S8x64x1x1.rank)
  bcast_S8x256_S8x1x256x1_0_2 : S8x256.BroadcastsInDim S8x1x256x1 (![0, 2] : Fin 2 → Fin S8x1x256x1.rank)
  bcast_S8x64x1x1_S8x64x256x1_0_1_2_3 : S8x64x1x1.BroadcastsInDim S8x64x256x1 (![0, 1, 2, 3] : Fin 4 → Fin S8x64x256x1.rank)
  bcast_S8x1x256x1_S8x64x256x1_0_1_2_3 : S8x1x256x1.BroadcastsInDim S8x64x256x1 (![0, 1, 2, 3] : Fin 4 → Fin S8x64x256x1.rank)
  bcast_S8x256_S8x1x1x256_0_3 : S8x256.BroadcastsInDim S8x1x1x256 (![0, 3] : Fin 2 → Fin S8x1x1x256.rank)
  bcast_S8x64x256x1_S8x64x256x256_0_1_2_3 : S8x64x256x1.BroadcastsInDim S8x64x256x256 (![0, 1, 2, 3] : Fin 4 → Fin S8x64x256x256.rank)
  bcast_S8x1x1x256_S8x64x256x256_0_1_2_3 : S8x1x1x256.BroadcastsInDim S8x64x256x256 (![0, 1, 2, 3] : Fin 4 → Fin S8x64x256x256.rank)
  dot_S8x64_S64x64_S8x64_1_1_0_0_n_n_wf : DotDims.WF S8x64 S64x64 S8x64 [1] [1] [0] [0] [] []
  dot_S8x256_S256x256_S8x256_1_1_0_0_n_n_wf : DotDims.WF S8x256 S256x256 S8x256 [1] [1] [0] [0] [] []

variable [Facts₀]

def dot_S8x64_S64x64_S8x64_1_1_0_0_n_n : DotDims S8x64 S64x64 S8x64 where
  lhsContracting := [1]
  rhsContracting := [1]
  lhsNonContracting := [0]
  rhsNonContracting := [0]
  lhsBatch := []
  rhsBatch := []
  wf := dot_S8x64_S64x64_S8x64_1_1_0_0_n_n_wf
def dot_S8x256_S256x256_S8x256_1_1_0_0_n_n : DotDims S8x256 S256x256 S8x256 where
  lhsContracting := [1]
  rhsContracting := [1]
  lhsNonContracting := [0]
  rhsNonContracting := [0]
  lhsBatch := []
  rhsBatch := []
  wf := dot_S8x256_S256x256_S8x256_1_1_0_0_n_n_wf

class Facts : Prop extends Facts₀ where

variable [Facts]
-- ==== Proof.LibFiberSum.lean ====
/-
  A sum over a fibre, re-indexed. For a map `p : ι → κ` between finite types and a point `j`, a sum over the
  indices that `p` sends to `j` is the sum over any type `α` that parametrizes that fibre one to one; when the
  parameter is a pair, the nested sum over its two components.
-/
import Mathlib.Data.Fintype.BigOperators

namespace Cert.Lib

open Finset

/-- The sum of `x` over the fibre of `p` at `j` is the sum of `x ∘ e` over `α`, for `e : α → ι` landing in the fibre
    with a two-sided inverse `inv` on it. -/
theorem sum_fiber_eq_sum {ι κ α M : Type*} [Fintype ι] [Fintype α] [DecidableEq κ] [AddCommMonoid M]
    (p : ι → κ) (j : κ) (e : α → ι) (inv : ι → α)
    (he : ∀ a, p (e a) = j) (hl : ∀ a, inv (e a) = a) (hr : ∀ i, p i = j → e (inv i) = i) (x : ι → M) :
    ∑ i ∈ univ.filter (fun i => p i = j), x i = ∑ a, x (e a) := by
  symm
  refine sum_bij' (fun a _ => e a) (fun i _ => inv i) ?_ ?_ ?_ ?_ ?_
  · intro a _; exact mem_filter.mpr ⟨mem_univ _, he a⟩
  · intro i _; exact mem_univ _
  · intro a _; exact hl a
  · intro i hi; exact hr i (mem_filter.mp hi).2
  · intro a _; rfl

/-- The same with the fibre parametrized by pairs: the nested sum, first component outermost. -/
theorem sum_fiber_eq_sum_sum {ι κ α β M : Type*} [Fintype ι] [Fintype α] [Fintype β] [DecidableEq κ] [AddCommMonoid M]
    (p : ι → κ) (j : κ) (e : α → β → ι) (inv : ι → α × β)
    (he : ∀ a b, p (e a b) = j) (hl : ∀ a b, inv (e a b) = (a, b)) (hr : ∀ i, p i = j → e (inv i).1 (inv i).2 = i)
    (x : ι → M) :
    ∑ i ∈ univ.filter (fun i => p i = j), x i = ∑ a, ∑ b, x (e a b) := by
  rw [sum_fiber_eq_sum p j (fun ab : α × β => e ab.1 ab.2) inv (fun ab => he ab.1 ab.2) (fun ab => hl ab.1 ab.2) hr x]
  exact Fintype.sum_prod_type _

end Cert.Lib
-- ==== Proof.Pools.lean ====
/-
  The three pooled sums of a [8, 64, 256, 256] array x over the extended reals:
    over (w, h) at (b, c),   over (h, c) at (b, w),   over (w, c) at (b, h),
  each as a nested sum over the two pooled coordinates, and the two ways the programs compute them:
  one reduction over two axes at once (the sum over the fibre of the index map that forgets the two axes), and two
  reductions over one axis each of the [64, 256, 256] slab of one b. Addition of extended reals is commutative and
  associative, so both are the same nested sum; no finiteness is used.
-/
import Idealize.ShloMosaic.PureOps.Ideal.Laws
import Idealize.ShloMosaic.Lib.ValueIdx
import proofs.«165398_j78451872628994_2_alg».proof.Proof.LibFiberSum

noncomputable section

namespace Cert.Pools

open Idealize.ShloMosaic Idealize.ShloMosaic.ValueIdx

abbrev X4 : Shape := ⟨4, ![8, 64, 256, 256]⟩
abbrev X3 : Shape := ⟨3, ![64, 256, 256]⟩

/-- The sum over (w, h) of x[b, c, w, h]. -/
def sumWH (x : X4.Idx → EReal) (b : Fin 8) (c : Fin 64) : EReal := ∑ w : Fin 256, ∑ h : Fin 256, x (ix4 b c w h)
/-- The sum over (h, c) of x[b, c, w, h]. -/
def sumHC (x : X4.Idx → EReal) (b : Fin 8) (w : Fin 256) : EReal := ∑ h : Fin 256, ∑ c : Fin 64, x (ix4 b c w h)
/-- The sum over (w, c) of x[b, c, w, h]. -/
def sumWC (x : X4.Idx → EReal) (b : Fin 8) (h : Fin 256) : EReal := ∑ w : Fin 256, ∑ c : Fin 64, x (ix4 b c w h)

/-! ## One reduction over two axes -/

/-- A sum over the axes (w, h) into [8, 64], from an initial value: the initial value plus the pooled sum. -/
theorem hostReduce_wh (h' : X4.ReducesTo [2, 3] ⟨2, ![8, 64]⟩) (x : X4.Idx → EReal) (init : EReal) (b : Fin 8) (c : Fin 64) :
    Ideal.hostReduceAdd h' x init (ix2 b c) = init + sumWH x b c := by
  unfold Ideal.hostReduceAdd sumWH
  refine congrArg (init + ·) ?_
  refine Cert.Lib.sum_fiber_eq_sum_sum h'.drop (ix2 b c) (fun w h => ix4 b c w h) (fun i => (i 2, i 3)) ?_ ?_ ?_ x
  · intro w h; funext d; apply Fin.ext
    match d with
    | ⟨0, _⟩ => exact h'.drop_apply_val_of_eq (ix4 b c w h) 0 0
    | ⟨1, _⟩ => exact h'.drop_apply_val_of_eq (ix4 b c w h) 1 1
  · intro w h; rfl
  · intro i hi
    have h0 : (i 0).val = b.val := (h'.drop_apply_val_of_eq i 0 0).symm.trans (congrArg Fin.val (congrFun hi 0))
    have h1 : (i 1).val = c.val := (h'.drop_apply_val_of_eq i 1 1).symm.trans (congrArg Fin.val (congrFun hi 1))
    funext d; apply Fin.ext
    match d with
    | ⟨0, _⟩ => exact h0.symm
    | ⟨1, _⟩ => exact h1.symm
    | ⟨2, _⟩ => rfl
    | ⟨3, _⟩ => rfl

/-- A sum over the axes (c, h) into [8, 256]: the initial value plus the pooled sum. -/
theorem hostReduce_ch (h' : X4.ReducesTo [1, 3] ⟨2, ![8, 256]⟩) (x : X4.Idx → EReal) (init : EReal) (b : Fin 8) (w : Fin 256) :
    Ideal.hostReduceAdd h' x init (ix2 b w) = init + sumHC x b w := by
  unfold Ideal.hostReduceAdd sumHC
  refine congrArg (init + ·) ?_
  refine Cert.Lib.sum_fiber_eq_sum_sum h'.drop (ix2 b w) (fun h c => ix4 b c w h) (fun i => (i 3, i 1)) ?_ ?_ ?_ x
  · intro h c; funext d; apply Fin.ext
    match d with
    | ⟨0, _⟩ => exact h'.drop_apply_val_of_eq (ix4 b c w h) 0 0
    | ⟨1, _⟩ => exact h'.drop_apply_val_of_eq (ix4 b c w h) 1 2
  · intro h c; rfl
  · intro i hi
    have h0 : (i 0).val = b.val := (h'.drop_apply_val_of_eq i 0 0).symm.trans (congrArg Fin.val (congrFun hi 0))
    have h2 : (i 2).val = w.val := (h'.drop_apply_val_of_eq i 1 2).symm.trans (congrArg Fin.val (congrFun hi 1))
    funext d; apply Fin.ext
    match d with
    | ⟨0, _⟩ => exact h0.symm
    | ⟨1, _⟩ => rfl
    | ⟨2, _⟩ => exact h2.symm
    | ⟨3, _⟩ => rfl

/-- A sum over the axes (c, w) into [8, 256]: the initial value plus the pooled sum. -/
theorem hostReduce_cw (h' : X4.ReducesTo [1, 2] ⟨2, ![8, 256]⟩) (x : X4.Idx → EReal) (init : EReal) (b : Fin 8) (h : Fin 256) :
    Ideal.hostReduceAdd h' x init (ix2 b h) = init + sumWC x b h := by
  unfold Ideal.hostReduceAdd sumWC
  refine congrArg (init + ·) ?_
  refine Cert.Lib.sum_fiber_eq_sum_sum h'.drop (ix2 b h) (fun w c => ix4 b c w h) (fun i => (i 2, i 1)) ?_ ?_ ?_ x
  · intro w c; funext d; apply Fin.ext
    match d with
    | ⟨0, _⟩ => exact h'.drop_apply_val_of_eq (ix4 b c w h) 0 0
    | ⟨1, _⟩ => exact h'.drop_apply_val_of_eq (ix4 b c w h) 1 3
  · intro w c; rfl
  · intro i hi
    have h0 : (i 0).val = b.val := (h'.drop_apply_val_of_eq i 0 0).symm.trans (congrArg Fin.val (congrFun hi 0))
    have h3 : (i 3).val = h.val := (h'.drop_apply_val_of_eq i 1 3).symm.trans (congrArg Fin.val (congrFun hi 1))
    funext d; apply Fin.ext
    match d with
    | ⟨0, _⟩ => exact h0.symm
    | ⟨1, _⟩ => rfl
    | ⟨2, _⟩ => rfl
    | ⟨3, _⟩ => exact h3.symm

/-! ## Two reductions over one axis each, on the slab of one b -/

/-- The slab summed over its last axis h, at (c, w). -/
theorem slab_sum_h (v : FVec Ideal X3 .f32) (hr : X3.Reduces [2] ⟨2, ![64, 256]⟩) (hφ : FKind.Formats .f32)
    (hacc : (0x00000000#32 : BitVec 32) = FKind.add.neutral .f32 hφ) (c : Fin 64) (w : Fin 256) :
    multiReduction .add [2] ⟨2, ![64, 256]⟩ v 0x00000000#32 hr hφ hacc (ix2 c w) = ∑ h : Fin 256, v (ix3 c w h) := by
  refine (Ideal.multiReduction_add_single v _ hr hφ hacc (ix2 c w)).trans ?_
  refine Finset.sum_congr rfl fun h _ => congrArg v ?_
  funext d; apply Fin.ext
  match d with
  | ⟨0, _⟩ => rfl
  | ⟨1, _⟩ => rfl
  | ⟨2, _⟩ => rfl

/-- The slab summed over its first axis c, at (w, h). -/
theorem slab_sum_c (v : FVec Ideal X3 .f32) (hr : X3.Reduces [0] ⟨2, ![256, 256]⟩) (hφ : FKind.Formats .f32)
    (hacc : (0x00000000#32 : BitVec 32) = FKind.add.neutral .f32 hφ) (w : Fin 256) (h : Fin 256) :
    multiReduction .add [0] ⟨2, ![256, 256]⟩ v 0x00000000#32 hr hφ hacc (ix2 w h) = ∑ c : Fin 64, v (ix3 c w h) := by
  refine (Ideal.multiReduction_add_single v _ hr hφ hacc (ix2 w h)).trans ?_
  refine Finset.sum_congr rfl fun c _ => congrArg v ?_
  funext d; apply Fin.ext
  match d with
  | ⟨0, _⟩ => rfl
  | ⟨1, _⟩ => rfl
  | ⟨2, _⟩ => rfl

/-- A [64, 256] matrix summed over its columns, at row c. -/
theorem mat_sum_cols {a b : Nat} (u : FVec Ideal ⟨2, ![a, b]⟩ .f32) (hr : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ u 0x00000000#32 hr hφ hacc (ix1 p) = ∑ q : Fin b, u (ix2 p q) := by
  refine (Ideal.multiReduction_add_single u _ hr hφ hacc (ix1 p)).trans ?_
  refine Finset.sum_congr rfl fun q _ => congrArg u ?_
  funext d; apply Fin.ext
  match d with
  | ⟨0, _⟩ => rfl
  | ⟨1, _⟩ => rfl

/-- A matrix summed over its rows, at column q. -/
theorem mat_sum_rows {a b : Nat} (u : FVec Ideal ⟨2, ![a, b]⟩ .f32) (hr : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ u 0x00000000#32 hr hφ hacc (ix1 q) = ∑ p : Fin a, u (ix2 p q) := by
  refine (Ideal.multiReduction_add_single u _ hr hφ hacc (ix1 q)).trans ?_
  refine Finset.sum_congr rfl fun p _ => congrArg u ?_
  funext d; apply Fin.ext
  match d with
  | ⟨0, _⟩ => rfl
  | ⟨1, _⟩ => rfl

end Cert.Pools

end
-- ==== Proof.LibOuterLayouts.lean ====
/-
  Unit axes added by a shape cast and filled by a broadcast, read at an index — the layouts by which an outer product
  u ⊗ v ⊗ w is formed from vectors: a vector as a column [a] → [a, 1] and as a [1, 1, a] slab, a matrix with a
  trailing unit axis [a, b] → [a, b, 1], a column broadcast along rows [a, 1] → [a, b], a trailing unit axis
  broadcast [a, b, 1] → [a, b, c], and a [1, 1, c] slab broadcast to [a, b, c]. Generic in the extents.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` vector cast to `[1, 1, a]` reads, at `(u, v, i)`, the vector at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add, Nat.mul_one, Nat.add_zero])

/-- An `[a, b]` matrix cast to `[a, b, 1]` reads, at `(i, j, u)`, the matrix at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column `[a, 1]` broadcast to `[a, b]` reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array broadcast to `[a, b, c]` reads, at `(i, j, k)`, the array at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` slab broadcast to `[a, b, c]` reads, at `(i, j, k)`, the slab at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Lib
-- ==== Proof.Payloads.lean ====
/-
  What the two kernel bodies store, read at an index, at the ideal values.
  The pooling body, from the [1, 64, 256, 256] block v of one b: at c the sum over (w, h) of v[0, c, w, h] times 2^-16;
  at w the sum over (h, c) times 2^-14; at h the sum over (w, c) times 2^-14 (the two scales kept as their words).
  The outer-product body, from one row each of the three gate matrices: at (c, w, h) the product (p[c] * q[w]) * r[h].
-/
import proofs.«165398_j78451872628994_2_alg».proof.Proof.Gen.KernelIdeal.Skeleton
import proofs.«165398_j78451872628994_2_alg».proof.Proof.Pools
import proofs.«165398_j78451872628994_2_alg».proof.Proof.LibOuterLayouts
import Idealize.ShloMosaic.Lib.ValueLayout

noncomputable section

namespace Cert.KernelIdeal.Payloads

open Cert.KernelIdeal Cert.KernelIdeal.Gen Idealize.ShloMosaic Idealize.ShloMosaic.ValueIdx Cert.Pools

/-- The block summed over c, at (w, h). -/
theorem pay1_apply (v : Vec Ideal S1x64x256x256 .f32) (w : Fin 256) (h : Fin 256) :
    k0_pay1 (F := Ideal) v (ix2 w h) = ∑ c : Fin 64, v (ix4 (0 : Fin 1) c w h) := by
  unfold k0_pay1
  refine (slab_sum_c _ _ _ _ w h).trans ?_
  refine Finset.sum_congr rfl fun c _ => ?_
  exact shapeCast_1abc_abc_apply v _ c w h

/-- The first store: at c, the sum over (w, h) of the block, scaled by the word of 2^-16. -/
theorem pay2_apply (v : Vec Ideal S1x64x256x256 .f32) (u u' : Fin 1) (c : Fin 64) :
    k0_pay2 (F := Ideal) v (ix3 u u' c)
      = (∑ w : Fin 256, ∑ h : Fin 256, v (ix4 (0 : Fin 1) c w h)) * Ideal.ofBits .f32 0x37800000#32 := by
  unfold k0_pay2
  refine (Cert.Lib.shapeCast_a_11a_apply _ _ u u' c).trans ?_
  refine (mulf_apply _ _ (ix1 c)).trans ?_
  refine congrArg₂ (· * ·) ?_ rfl
  refine (mat_sum_cols _ _ _ _ c).trans ?_
  refine Finset.sum_congr rfl fun w _ => ?_
  refine (slab_sum_h _ _ _ _ c w).trans ?_
  refine Finset.sum_congr rfl fun h _ => ?_
  exact shapeCast_1abc_abc_apply v _ c w h

/-- The second store: at w, the sum over (h, c) of the block, scaled by the word of 2^-14. -/
theorem pay3_apply (v : Vec Ideal S1x64x256x256 .f32) (u u' : Fin 1) (w : Fin 256) :
    k0_pay3 (F := Ideal) v (ix3 u u' w)
      = (∑ h : Fin 256, ∑ c : Fin 64, v (ix4 (0 : Fin 1) c w h)) * Ideal.ofBits .f32 0x38800000#32 := by
  unfold k0_pay3
  refine (Cert.Lib.shapeCast_a_11a_apply _ _ u u' w).trans ?_
  refine (mulf_apply _ _ (ix1 w)).trans ?_
  refine congrArg₂ (· * ·) ?_ rfl
  refine (mat_sum_cols _ _ _ _ w).trans ?_
  exact Finset.sum_congr rfl fun h _ => pay1_apply v w h

/-- The third store: at h, the sum over (w, c) of the block, scaled by the word of 2^-14. -/
theorem pay4_apply (v : Vec Ideal S1x64x256x256 .f32) (u u' : Fin 1) (h : Fin 256) :
    k0_pay4 (F := Ideal) v (ix3 u u' h)
      = (∑ w : Fin 256, ∑ c : Fin 64, v (ix4 (0 : Fin 1) c w h)) * Ideal.ofBits .f32 0x38800000#32 := by
  unfold k0_pay4
  refine (Cert.Lib.shapeCast_a_11a_apply _ _ u u' h).trans ?_
  refine (mulf_apply _ _ (ix1 h)).trans ?_
  refine congrArg₂ (· * ·) ?_ rfl
  refine (mat_sum_rows _ _ _ _ h).trans ?_
  exact Finset.sum_congr rfl fun w _ => pay1_apply v w h

/-- The outer-product store: at (c, w, h), the product of the three rows' entries, the first two multiplied first. -/
theorem outer_apply (p : Vec Ideal S1x64 .f32) (q : Vec Ideal S1x256 .f32) (r : Vec Ideal S1x128 .f32)
    (u : Fin 1) (c : Fin 64) (w : Fin 256) (h : Fin 128) :
    k1_pay1 (F := Ideal) p q r (ix4 u c w h)
      = (p (ix2 (0 : Fin 1) c) * q (ix2 (0 : Fin 1) w)) * r (ix2 (0 : Fin 1) h) := by
  unfold k1_pay1
  refine (shapeCast_abc_1abc_apply _ _ u c w h).trans ?_
  refine (mulf_apply _ _ (ix3 c w h)).trans ?_
  refine congrArg₂ (· * ·) ?_ ?_
  · refine (Cert.Lib.broadcastTo_ab1_abc_apply _ _ c w h).trans ?_
    refine (Cert.Lib.shapeCast_ab_ab1_apply _ _ c w (0 : Fin 1)).trans ?_
    refine (mulf_apply _ _ (ix2 c w)).trans ?_
    refine congrArg₂ (· * ·) ?_ ?_
    · refine (Cert.Lib.broadcastTo_a1_ab_apply _ _ c w).trans ?_
      refine (Cert.Lib.shapeCast_a_a1_apply _ _ c (0 : Fin 1)).trans ?_
      exact shapeCast_1a_a_apply p _ c
    · refine (broadcastTo_1b_ab_apply _ _ c w).trans ?_
      refine (shapeCast_a_1a_apply _ _ (0 : Fin 1) w).trans ?_
      exact shapeCast_1a_a_apply q _ w
  · refine (Cert.Lib.broadcastTo_11c_abc_apply _ _ c w h).trans ?_
    refine (Cert.Lib.shapeCast_a_11a_apply _ _ (0 : Fin 1) (0 : Fin 1) h).trans ?_
    exact shapeCast_1a_a_apply r _ h

end Cert.KernelIdeal.Payloads

end
-- ==== Proof.Gates.lean ====
/-
  The gate both programs compute from a pooled mean μ, a weight matrix W and a bias b, as the one chain of host
  operations they share: 1 / (1 + exp (-(μ · Wᵀ + b))), the logistic function of the dense layer. It is a function of (μ, W, b):
  equal means, weights and biases give equal gates.
-/
import proofs.«165398_j78451872628994_2_alg».proof.Proof.Gen.KernelIdeal
import Idealize.ShloMosaic.PureOps.Ideal

noncomputable section

namespace Cert.KernelIdeal.Gates

open Cert.KernelIdeal Cert.KernelIdeal.Gen Idealize.ShloMosaic

/-- The gate over 64 channels. -/
def gate64 (mean : FVec Ideal S8x64 .f32) (W : FVec Ideal S64x64 .f32) (b : FVec Ideal S64 .f32) : FVec Ideal S8x64 .f32 :=
  Host.divf (F := Ideal) (broadcastInDim S8x64 ![] bcast_S_S8x64 (constant (F := Ideal) S_ .f32 0x3F800000#32))
    (addf (broadcastInDim S8x64 ![] bcast_S_S8x64 (constant (F := Ideal) S_ .f32 0x3F800000#32))
      (Host.exp (Host.negf (addf (Host.dotGeneral dot_S8x64_S64x64_S8x64_1_1_0_0_n_n none mean W)
        (broadcastInDim S8x64 ![0, 1] bcast_S1x64_S8x64_0_1 (broadcastInDim S1x64 ![1] bcast_S64_S1x64_1 b))))))

/-- The gate over 256 positions. -/
def gate256 (mean : FVec Ideal S8x256 .f32) (W : FVec Ideal S256x256 .f32) (b : FVec Ideal S256 .f32) : FVec Ideal S8x256 .f32 :=
  Host.divf (F := Ideal) (broadcastInDim S8x256 ![] bcast_S_S8x256 (constant (F := Ideal) S_ .f32 0x3F800000#32))
    (addf (broadcastInDim S8x256 ![] bcast_S_S8x256 (constant (F := Ideal) S_ .f32 0x3F800000#32))
      (Host.exp (Host.negf (addf (Host.dotGeneral dot_S8x256_S256x256_S8x256_1_1_0_0_n_n none mean W)
        (broadcastInDim S8x256 ![0, 1] bcast_S1x256_S8x256_0_1 (broadcastInDim S1x256 ![1] bcast_S256_S1x256_1 b))))))

end Cert.KernelIdeal.Gates

end
-- ==== Proof.Spec.lean ====
/-
  The function both programs compute, of x : [8, 64, 256, 256], three weight matrices and three biases.
  The three pooled means of x — over (w, h), over (h, c) and over (w, c), each the pooled sum times the exact
  reciprocal of the count (2^-16, 2^-14, 2^-14; kept as their words) —, as [8, 1, ·] arrays; each mean, with its unit
  axis dropped, through its gate (the logistic function of a dense layer); and the batched triple outer product of
  the three gates: result[b, c, w, h] = (gc[b, c] * gw[b, w]) * gh[b, h].
-/
import proofs.«165398_j78451872628994_2_alg».proof.Proof.Pools
import proofs.«165398_j78451872628994_2_alg».proof.Proof.Gates

noncomputable section

namespace Cert.KernelIdeal.Spec

open Cert.KernelIdeal Cert.KernelIdeal.Gen Cert.KernelIdeal.Gates Idealize.ShloMosaic Idealize.ShloMosaic.ValueIdx Cert.Pools

/-- The mean over (w, h): the pooled sum times the word of 2^-16. -/
def meanC (x : S8x64x256x256.Idx → EReal) : S8x1x64.Idx → EReal :=
  fun i => sumWH x (i 0) (i 2) * Ideal.ofBits .f32 0x37800000#32
/-- The mean over (h, c): the pooled sum times the word of 2^-14. -/
def meanW (x : S8x64x256x256.Idx → EReal) : S8x1x256.Idx → EReal :=
  fun i => sumHC x (i 0) (i 2) * Ideal.ofBits .f32 0x38800000#32
/-- The mean over (w, c): the pooled sum times the word of 2^-14. -/
def meanH (x : S8x64x256x256.Idx → EReal) : S8x1x256.Idx → EReal :=
  fun i => sumWC x (i 0) (i 2) * Ideal.ofBits .f32 0x38800000#32

/-- The triple outer product of three [8, ·] matrices, batched over their common first axis. -/
def outer (p : S8x64.Idx → EReal) (q : S8x256.Idx → EReal) (r : S8x256.Idx → EReal) : S8x64x256x256.Idx → EReal :=
  fun i => (p (ix2 (i 0) (i 1)) * q (ix2 (i 0) (i 2))) * r (ix2 (i 0) (i 3))

/-- The whole function. -/
def result (x : S8x64x256x256.Idx → EReal) (Wc : S64x64.Idx → EReal) (bc : S64.Idx → EReal)
    (Ww : S256x256.Idx → EReal) (bw : S256.Idx → EReal) (Wh : S256x256.Idx → EReal) (bh : S256.Idx → EReal) :
    S8x64x256x256.Idx → EReal :=
  outer (gate64 (shapeCast S8x64 (meanC x) shapeCasts_S8x1x64_S8x64) Wc bc)
    (gate256 (shapeCast S8x256 (meanW x) shapeCasts_S8x1x256_S8x256) Ww bw)
    (gate256 (shapeCast S8x256 (meanH x) shapeCasts_S8x1x256_S8x256) Wh bh)

end Cert.KernelIdeal.Spec

end
-- ==== Proof.Region0.lean ====
/-
  The pooling region, read: after its eight grid points (one per b) each of its three result arrays holds, at
  (b, 0, ·), the pooled sum of the slab x[b] scaled by the body's constant — block b of the array is what point b
  stored, the blocks tile the array, and the input block at point b is the slab x[b].
-/
import proofs.«165398_j78451872628994_2_alg».proof.Proof.Gen.KernelIdeal.Frame
import proofs.«165398_j78451872628994_2_alg».proof.Proof.Payloads
import proofs.«165398_j78451872628994_2_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx Cert.Pools Cert.KernelIdeal.Spec

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the grid: every window's block index is (t, 0, …). -/
theorem idx0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The input block at point t is the slab x[t]. -/
theorem iblk0_apply (c : Dev nD) (t : Fin cfg0.N) (cc : Fin 64) (w h : Fin 256) (k : S8x64x256x256.Idx)
    (hk0 : (k 0).val = t.val) (hk1 : (k 1).val = cc.val) (hk2 : (k 2).val = w.val) (hk3 : (k 3).val = h.val) :
    (iblk0 V c 0 t : Vec Ideal S1x64x256x256 .f32) (ix4 (0 : Fin 1) cc w h) = (V c main_arg0 : S8x64x256x256.Idx → EReal) k := by
  obtain ⟨e0, e1, e2, e3, -⟩ := idx0 t
  unfold iblk0
  rw [View.read_apply]
  show V c main_arg0 _ = V c main_arg0 _
  congr 1
  funext a
  apply Fin.ext
  match a with
  | ⟨0, _⟩ => show win0_0.index t (0 : Fin 4) * 1 + 1 * 0 = (k 0).val; rw [e0, hk0]; omega
  | ⟨1, _⟩ => show win0_0.index t (1 : Fin 4) * 64 + 1 * cc.val = (k 1).val; rw [e1, hk1]; omega
  | ⟨2, _⟩ => show win0_0.index t (2 : Fin 4) * 256 + 1 * w.val = (k 2).val; rw [e2, hk2]; omega
  | ⟨3, _⟩ => show win0_0.index t (3 : Fin 4) * 256 + 1 * h.val = (k 3).val; rw [e3, hk3]; omega

/-! ## What each store holds, against the mean at the array index under it -/

theorem store_meanC (x : S8x64x256x256.Idx → EReal) (v : Vec Ideal S1x64x256x256 .f32) (j : S1x1x64.Idx) (i : S8x1x64.Idx)
    (hv : ∀ (w h : Fin 256), v (ix4 (0 : Fin 1) (j 2) w h) = x (ix4 (i 0) (i 2) w h)) :
    k0_pay2 (F := Ideal) v j = meanC x i := by
  rw [eq_ix3 j]
  refine (Payloads.pay2_apply v (j 0) (j 1) (j 2)).trans ?_
  unfold meanC sumWH
  refine congrArg₂ (· * ·) ?_ rfl
  exact Finset.sum_congr rfl fun w _ => Finset.sum_congr rfl fun h _ => hv w h

theorem store_meanW (x : S8x64x256x256.Idx → EReal) (v : Vec Ideal S1x64x256x256 .f32) (j : S1x1x256.Idx) (i : S8x1x256.Idx)
    (hv : ∀ (h : Fin 256) (cc : Fin 64), v (ix4 (0 : Fin 1) cc (j 2) h) = x (ix4 (i 0) cc (i 2) h)) :
    k0_pay3 (F := Ideal) v j = meanW x i := by
  rw [eq_ix3 j]
  refine (Payloads.pay3_apply v (j 0) (j 1) (j 2)).trans ?_
  unfold meanW sumHC
  refine congrArg₂ (· * ·) ?_ rfl
  exact Finset.sum_congr rfl fun h _ => Finset.sum_congr rfl fun cc _ => hv h cc

theorem store_meanH (x : S8x64x256x256.Idx → EReal) (v : Vec Ideal S1x64x256x256 .f32) (j : S1x1x256.Idx) (i : S8x1x256.Idx)
    (hv : ∀ (w : Fin 256) (cc : Fin 64), v (ix4 (0 : Fin 1) cc w (j 2)) = x (ix4 (i 0) cc w (i 2))) :
    k0_pay4 (F := Ideal) v j = meanH x i := by
  rw [eq_ix3 j]
  refine (Payloads.pay4_apply v (j 0) (j 1) (j 2)).trans ?_
  unfold meanH sumWC
  refine congrArg₂ (· * ·) ?_ rfl
  exact Finset.sum_congr rfl fun w _ => Finset.sum_congr rfl fun cc _ => hv w cc

/-! ## What point t writes back is block t of the mean -/

theorem flushed1_eq (c : Dev nD) (t : Fin cfg0.N) :
    (dat0 V c).flushed 1 t = ((cfg0.win 1).blk t).view.read (Elt Ideal) (meanC (V c main_arg0)) := by
  obtain ⟨-, -, -, -, e0, e1, e2, -⟩ := idx0 t
  show (cfg0.win 1).cut (grid0.coords t) ((dat0 V c).after 1 t) = _
  rw [after0_1]
  unfold out0_1
  rw [View.canon_unit_zero hz3]
  simp only [View.ld_unit_zero (S := S1x64x256x256) hz4]
  funext j
  show k0_pay2 (iblk0 V c 0 t) j = meanC (V c main_arg0) (((cfg0.win 1).blk t).view.emb j)
  refine store_meanC (V c main_arg0) (iblk0 V c 0 t) j _ fun w h => ?_
  refine iblk0_apply V c t (j 2) w h _ ?_ ?_ rfl rfl
  · show win0_1.index t (0 : Fin 3) * 1 + 1 * (j 0).val = t.val
    have hj0 : (j 0).val < 1 := (j 0).isLt; rw [e0]; omega
  · show win0_1.index t (2 : Fin 3) * 64 + 1 * (j 2).val = (j 2).val
    rw [e2]; omega

theorem flushed2_eq (c : Dev nD) (t : Fin cfg0.N) :
    (dat0 V c).flushed 2 t = ((cfg0.win 2).blk t).view.read (Elt Ideal) (meanW (V c main_arg0)) := by
  obtain ⟨-, -, -, -, -, -, -, e0, e1, e2, -⟩ := idx0 t
  show (cfg0.win 2).cut (grid0.coords t) ((dat0 V c).after 2 t) = _
  rw [after0_2]
  unfold out0_2
  rw [View.canon_unit_zero hz3]
  simp only [View.ld_unit_zero (S := S1x64x256x256) hz4]
  funext j
  show k0_pay3 (iblk0 V c 0 t) j = meanW (V c main_arg0) (((cfg0.win 2).blk t).view.emb j)
  refine store_meanW (V c main_arg0) (iblk0 V c 0 t) j _ fun h cc => ?_
  refine iblk0_apply V c t cc (j 2) h _ ?_ rfl ?_ rfl
  · show win0_2.index t (0 : Fin 3) * 1 + 1 * (j 0).val = t.val
    have hj0 : (j 0).val < 1 := (j 0).isLt; rw [e0]; omega
  · show win0_2.index t (2 : Fin 3) * 256 + 1 * (j 2).val = (j 2).val
    rw [e2]; omega

theorem flushed3_eq (c : Dev nD) (t : Fin cfg0.N) :
    (dat0 V c).flushed 3 t = ((cfg0.win 3).blk t).view.read (Elt Ideal) (meanH (V c main_arg0)) := by
  obtain ⟨-, -, -, -, -, -, -, -, -, -, e0, e1, e2⟩ := idx0 t
  show (cfg0.win 3).cut (grid0.coords t) ((dat0 V c).after 3 t) = _
  rw [after0_3]
  unfold out0_3
  rw [View.canon_unit_zero hz3]
  simp only [View.ld_unit_zero (S := S1x64x256x256) hz4]
  funext j
  show k0_pay4 (iblk0 V c 0 t) j = meanH (V c main_arg0) (((cfg0.win 3).blk t).view.emb j)
  refine store_meanH (V c main_arg0) (iblk0 V c 0 t) j _ fun w cc => ?_
  refine iblk0_apply V c t cc w (j 2) _ ?_ rfl rfl ?_
  · show win0_3.index t (0 : Fin 3) * 1 + 1 * (j 0).val = t.val
    have hj0 : (j 0).val < 1 := (j 0).isLt; rw [e0]; omega
  · show win0_3.index t (2 : Fin 3) * 256 + 1 * (j 2).val = (j 2).val
    rw [e2]; omega

/-! ## The blocks tile each array -/

/-- The point whose block holds row b. -/
def pointOf (b : Fin 8) : Fin cfg0.N := ⟨b.val, by have := b.isLt; rw [show cfg0.N = 8 from N_0]; exact this⟩

theorem cover1 (i : S8x1x64.Idx) : ∃ t : Fin cfg0.N, (cfg0.win 1).flush t = true ∧ i ∈ ((cfg0.win 1).blk t).view.set := by
  refine ⟨pointOf (i 0), flush0_1 _, ?_⟩
  obtain ⟨-, -, -, -, e0, e1, e2, -⟩ := idx0 (pointOf (i 0))
  show i ∈ ((View.whole main_v0_0).slice (win0_1.rect (pointOf (i 0)))).set
  rw [View.set_slice_whole, Rect.mem_set_unit]
  intro a
  have h1 : (i 1).val < 1 := (i 1).isLt
  have h2 : (i 2).val < 64 := (i 2).isLt
  match a with
  | ⟨0, _⟩ => show win0_1.index (pointOf (i 0)) (0 : Fin 3) * 1 ≤ (i 0).val ∧ (i 0).val < win0_1.index (pointOf (i 0)) (0 : Fin 3) * 1 + 1
              rw [e0]; show (i 0).val * 1 ≤ (i 0).val ∧ (i 0).val < (i 0).val * 1 + 1; omega
  | ⟨1, _⟩ => show win0_1.index (pointOf (i 0)) (1 : Fin 3) * 1 ≤ (i 1).val ∧ (i 1).val < win0_1.index (pointOf (i 0)) (1 : Fin 3) * 1 + 1
              rw [e1]; omega
  | ⟨2, _⟩ => show win0_1.index (pointOf (i 0)) (2 : Fin 3) * 64 ≤ (i 2).val ∧ (i 2).val < win0_1.index (pointOf (i 0)) (2 : Fin 3) * 64 + 64
              rw [e2]; omega

theorem cover2 (i : S8x1x256.Idx) : ∃ t : Fin cfg0.N, (cfg0.win 2).flush t = true ∧ i ∈ ((cfg0.win 2).blk t).view.set := by
  refine ⟨pointOf (i 0), flush0_2 _, ?_⟩
  obtain ⟨-, -, -, -, -, -, -, e0, e1, e2, -⟩ := idx0 (pointOf (i 0))
  show i ∈ ((View.whole main_v0_1).slice (win0_2.rect (pointOf (i 0)))).set
  rw [View.set_slice_whole, Rect.mem_set_unit]
  intro a
  have h1 : (i 1).val < 1 := (i 1).isLt
  have h2 : (i 2).val < 256 := (i 2).isLt
  match a with
  | ⟨0, _⟩ => show win0_2.index (pointOf (i 0)) (0 : Fin 3) * 1 ≤ (i 0).val ∧ (i 0).val < win0_2.index (pointOf (i 0)) (0 : Fin 3) * 1 + 1
              rw [e0]; show (i 0).val * 1 ≤ (i 0).val ∧ (i 0).val < (i 0).val * 1 + 1; omega
  | ⟨1, _⟩ => show win0_2.index (pointOf (i 0)) (1 : Fin 3) * 1 ≤ (i 1).val ∧ (i 1).val < win0_2.index (pointOf (i 0)) (1 : Fin 3) * 1 + 1
              rw [e1]; omega
  | ⟨2, _⟩ => show win0_2.index (pointOf (i 0)) (2 : Fin 3) * 256 ≤ (i 2).val ∧ (i 2).val < win0_2.index (pointOf (i 0)) (2 : Fin 3) * 256 + 256
              rw [e2]; omega

theorem cover3 (i : S8x1x256.Idx) : ∃ t : Fin cfg0.N, (cfg0.win 3).flush t = true ∧ i ∈ ((cfg0.win 3).blk t).view.set := by
  refine ⟨pointOf (i 0), flush0_3 _, ?_⟩
  obtain ⟨-, -, -, -, -, -, -, -, -, -, e0, e1, e2⟩ := idx0 (pointOf (i 0))
  show i ∈ ((View.whole main_v0_2).slice (win0_3.rect (pointOf (i 0)))).set
  rw [View.set_slice_whole, Rect.mem_set_unit]
  intro a
  have h1 : (i 1).val < 1 := (i 1).isLt
  have h2 : (i 2).val < 256 := (i 2).isLt
  match a with
  | ⟨0, _⟩ => show win0_3.index (pointOf (i 0)) (0 : Fin 3) * 1 ≤ (i 0).val ∧ (i 0).val < win0_3.index (pointOf (i 0)) (0 : Fin 3) * 1 + 1
              rw [e0]; show (i 0).val * 1 ≤ (i 0).val ∧ (i 0).val < (i 0).val * 1 + 1; omega
  | ⟨1, _⟩ => show win0_3.index (pointOf (i 0)) (1 : Fin 3) * 1 ≤ (i 1).val ∧ (i 1).val < win0_3.index (pointOf (i 0)) (1 : Fin 3) * 1 + 1
              rw [e1]; omega
  | ⟨2, _⟩ => show win0_3.index (pointOf (i 0)) (2 : Fin 3) * 256 ≤ (i 2).val ∧ (i 2).val < win0_3.index (pointOf (i 0)) (2 : Fin 3) * 256 + 256
              rw [e2]; omega

/-! ## The three arrays after the region -/

theorem final1 (c : Dev nD) : (dat0 V c).arrAt 1 cfg0.N = meanC (V c main_arg0) :=
  (dat0 V c).arrAt_eq_of_cover 1 (meanC (V c main_arg0)) (fun t _ => flushed1_eq V c t) cover1
theorem final2 (c : Dev nD) : (dat0 V c).arrAt 2 cfg0.N = meanW (V c main_arg0) :=
  (dat0 V c).arrAt_eq_of_cover 2 (meanW (V c main_arg0)) (fun t _ => flushed2_eq V c t) cover2
theorem final3 (c : Dev nD) : (dat0 V c).arrAt 3 cfg0.N = meanH (V c main_arg0) :=
  (dat0 V c).arrAt_eq_of_cover 3 (meanH (V c main_arg0)) (fun t _ => flushed3_eq V c t) cover3

end Cert.KernelIdeal.Region0

end
-- ==== Proof.Region1.lean ====
/-
  The outer-product region, read: after its sixteen grid points (b, half of the h axis) the result array holds, at
  (b, c, w, h), the product (p[b, c] * q[b, w]) * r[b, h] of the three gate matrices the region is entered with — at
  point (b, s) the body loads row b of each staged matrix (the whole of p and q, columns 128 s … 128 s + 127 of r),
  stores their outer product, and that is block (b, 0, 0, s) of the array; the sixteen blocks tile it.
-/
import proofs.«165398_j78451872628994_2_alg».proof.Proof.Gen.KernelIdeal.Frame
import proofs.«165398_j78451872628994_2_alg».proof.Proof.Payloads
import proofs.«165398_j78451872628994_2_alg».proof.Proof.Spec
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Region1

open Cert.KernelIdeal Cert.KernelIdeal.Gen Idealize.ShloMosaic.ValueIdx Cert.KernelIdeal.Spec

theorem hz4 : (![0, 0, 0, 0] : Fin 4 → Nat) = fun _ => 0 := funext fun a => by fin_cases a <;> rfl

/-! ## What the body leaves in the output's staging buffer -/

section Piece
variable {F : FTy → Type} [FloatOps F]

/-- The one store's payload, of the three rows the body loads. -/
theorem out1_eq (c : Dev nD) (i : grid1.Coords) (arg2 : Memref sig .tc .vmem S8x64 .f32) (harg2 : arg2.IsWhole) (arg3 : Memref sig .tc .vmem S8x256 .f32) (harg3 : arg3.IsWhole) (arg4 : Memref sig .tc .vmem S8x128 .f32) (harg4 : arg4.IsWhole) (arg5 : Memref sig .tc .vmem S1x64x256x128 .f32) (harg5 : arg5.IsWhole)
    (x0 : Vec F S8x64 .f32) (x1 : Vec F S8x256 .f32) (x2 : Vec F S8x128 .f32) :
    out1_A_3 c i arg2 harg2 arg3 harg3 arg4 harg4 arg5 harg5 x0 x1 x2
      = k1_pay1 (View.ld x0 (Rect.unit (s := S8x64) (k1_off1 i) S1x64.size (k1_off1_inb i)))
          (View.ld x1 (Rect.unit (s := S8x256) (k1_off2 i) S1x256.size (k1_off2_inb i)))
          (View.ld x2 (Rect.unit (s := S8x128) (k1_off3 i) S1x128.size (k1_off3_inb i))) := by
  unfold out1_A_3
  rw [View.read_writes_eq_canon _ _ _ (cover1_A_3 c i arg2 harg2 arg3 harg3 arg4 harg4 arg5 harg5 x0 x1 x2)]
  unfold kernelRun1_A
  dsimp only
  try sl_unfold_words
  rw [View.canon_unit_zero hz4]
  simp only [View.readAt_eq_ld, harg2.read_unread, harg3.read_unread, harg4.read_unread]

end Piece

/-! ## The grid: which row the body loads, which block each window stages -/

theorem idx1 : ∀ t : Fin cfg1.N,
    k1_off1 (grid1.coords t) (0 : Fin 2) = t.val / 2 ∧ k1_off1 (grid1.coords t) (1 : Fin 2) = 0
    ∧ k1_off2 (grid1.coords t) (0 : Fin 2) = t.val / 2 ∧ k1_off2 (grid1.coords t) (1 : Fin 2) = 0
    ∧ k1_off3 (grid1.coords t) (0 : Fin 2) = t.val / 2 ∧ k1_off3 (grid1.coords t) (1 : Fin 2) = 0
    ∧ win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val % 2
    ∧ win1_3.index t (0 : Fin 4) = t.val / 2 ∧ win1_3.index t (1 : Fin 4) = 0 ∧ win1_3.index t (2 : Fin 4) = 0
    ∧ win1_3.index t (3 : Fin 4) = t.val % 2 :=
  (by decide +kernel : ∀ t : Fin grid1.N, _)

variable (V : (c : Dev nD) → (b : Ref sig .tc) → Buf (Elt Ideal) ((c : Thread nD τ).loc b))

/-- The first window stages the whole of p at every point. -/
theorem iblk1_0_apply (c : Dev nD) (t : Fin cfg1.N) (y : S8x64.Idx) (k : S8x64.Idx)
    (hk0 : (k 0).val = (y 0).val) (hk1 : (k 1).val = (y 1).val) :
    (iblk1 V c 0 t : Vec Ideal S8x64 .f32) y = (V c main_v13 : S8x64.Idx → EReal) k := by
  obtain ⟨-, -, -, -, -, -, e0, e1, -⟩ := idx1 t
  unfold iblk1
  rw [View.read_apply]
  show V c main_v13 _ = V c main_v13 _
  congr 1
  funext a
  apply Fin.ext
  match a with
  | ⟨0, _⟩ => show win1_0.index t (0 : Fin 2) * 8 + 1 * (y 0).val = (k 0).val; rw [e0, hk0]; omega
  | ⟨1, _⟩ => show win1_0.index t (1 : Fin 2) * 64 + 1 * (y 1).val = (k 1).val; rw [e1, hk1]; omega

/-- The second window stages the whole of q at every point. -/
theorem iblk1_1_apply (c : Dev nD) (t : Fin cfg1.N) (y : S8x256.Idx) (k : S8x256.Idx)
    (hk0 : (k 0).val = (y 0).val) (hk1 : (k 1).val = (y 1).val) :
    (iblk1 V c 1 t : Vec Ideal S8x256 .f32) y = (V c main_v23 : S8x256.Idx → EReal) k := by
  obtain ⟨-, -, -, -, -, -, -, -, e0, e1, -⟩ := idx1 t
  unfold iblk1
  rw [View.read_apply]
  show V c main_v23 _ = V c main_v23 _
  congr 1
  funext a
  apply Fin.ext
  match a with
  | ⟨0, _⟩ => show win1_1.index t (0 : Fin 2) * 8 + 1 * (y 0).val = (k 0).val; rw [e0, hk0]; omega
  | ⟨1, _⟩ => show win1_1.index t (1 : Fin 2) * 256 + 1 * (y 1).val = (k 1).val; rw [e1, hk1]; omega

/-- The third window stages, at point t, the half t mod 2 of r's columns. -/
theorem iblk1_2_apply (c : Dev nD) (t : Fin cfg1.N) (y : S8x128.Idx) (k : S8x256.Idx)
    (hk0 : (k 0).val = (y 0).val) (hk1 : (k 1).val = t.val % 2 * 128 + (y 1).val) :
    (iblk1 V c 2 t : Vec Ideal S8x128 .f32) y = (V c main_v33 : S8x256.Idx → EReal) k := by
  obtain ⟨-, -, -, -, -, -, -, -, -, -, e0, e1, -⟩ := idx1 t
  unfold iblk1
  rw [View.read_apply]
  show V c main_v33 _ = V c main_v33 _
  congr 1
  funext a
  apply Fin.ext
  match a with
  | ⟨0, _⟩ => show win1_2.index t (0 : Fin 2) * 8 + 1 * (y 0).val = (k 0).val; rw [e0, hk0]; omega
  | ⟨1, _⟩ => show win1_2.index t (1 : Fin 2) * 128 + 1 * (y 1).val = (k 1).val; rw [e1, hk1]; omega

/-! ## The store against the outer product at the array index under it -/

theorem store_outer (P : S8x64.Idx → EReal) (Q : S8x256.Idx → EReal) (R : S8x256.Idx → EReal)
    (p : Vec Ideal S1x64 .f32) (q : Vec Ideal S1x256 .f32) (r : Vec Ideal S1x128 .f32) (j : S1x64x256x128.Idx) (i : S8x64x256x256.Idx)
    (hp : p (ix2 (0 : Fin 1) (j 1)) = P (ix2 (i 0) (i 1))) (hq : q (ix2 (0 : Fin 1) (j 2)) = Q (ix2 (i 0) (i 2)))
    (hr : r (ix2 (0 : Fin 1) (j 3)) = R (ix2 (i 0) (i 3))) :
    k1_pay1 (F := Ideal) p q r j = outer P Q R i := by
  rw [eq_ix4 j]
  refine (Payloads.outer_apply p q r (j 0) (j 1) (j 2) (j 3)).trans ?_
  unfold outer
  rw [hp, hq, hr]

/-- What point t writes back is block t of the outer product of the matrices the region is entered with. -/
theorem flushed3_eq (c : Dev nD) (t : Fin cfg1.N) :
    (dat1 V c).flushed 3 t
      = ((cfg1.win 3).blk t).view.read (Elt Ideal) (outer (V c main_v13) (V c main_v23) (V c main_v33)) := by
  obtain ⟨o10, o11, o20, o21, o30, o31, -, -, -, -, -, -, e0, e1, e2, e3⟩ := idx1 t
  show (cfg1.win 3).cut (grid1.coords t) ((dat1 V c).after 3 t) = _
  rw [after1_3]
  unfold outsAt1
  rw [out1_eq]
  funext j
  have hj0 : (j 0).val < 1 := (j 0).isLt
  have hj3 : (j 3).val < 128 := (j 3).isLt
  show k1_pay1 (F := Ideal)
        (View.ld (iblk1 V c 0 t) (Rect.unit (s := S8x64) (k1_off1 (grid1.coords t)) S1x64.size (k1_off1_inb (grid1.coords t))))
        (View.ld (iblk1 V c 1 t) (Rect.unit (s := S8x256) (k1_off2 (grid1.coords t)) S1x256.size (k1_off2_inb (grid1.coords t))))
        (View.ld (iblk1 V c 2 t) (Rect.unit (s := S8x128) (k1_off3 (grid1.coords t)) S1x128.size (k1_off3_inb (grid1.coords t)))) j
      = outer (V c main_v13) (V c main_v23) (V c main_v33) (((cfg1.win 3).blk t).view.emb j)
  refine store_outer (V c main_v13) (V c main_v23) (V c main_v33) _ _ _ j _ ?_ ?_ ?_
  · refine iblk1_0_apply V c t _ _ ?_ ?_
    · show win1_3.index t (0 : Fin 4) * 1 + 1 * (j 0).val = k1_off1 (grid1.coords t) (0 : Fin 2) + 1 * 0
      rw [e0, o10]; omega
    · show win1_3.index t (1 : Fin 4) * 64 + 1 * (j 1).val = k1_off1 (grid1.coords t) (1 : Fin 2) + 1 * (j 1).val
      rw [e1, o11]
  · refine iblk1_1_apply V c t _ _ ?_ ?_
    · show win1_3.index t (0 : Fin 4) * 1 + 1 * (j 0).val = k1_off2 (grid1.coords t) (0 : Fin 2) + 1 * 0
      rw [e0, o20]; omega
    · show win1_3.index t (2 : Fin 4) * 256 + 1 * (j 2).val = k1_off2 (grid1.coords t) (1 : Fin 2) + 1 * (j 2).val
      rw [e2, o21]
  · refine iblk1_2_apply V c t _ _ ?_ ?_
    · show win1_3.index t (0 : Fin 4) * 1 + 1 * (j 0).val = k1_off3 (grid1.coords t) (0 : Fin 2) + 1 * 0
      rw [e0, o30]; omega
    · show win1_3.index t (3 : Fin 4) * 128 + 1 * (j 3).val = t.val % 2 * 128 + (k1_off3 (grid1.coords t) (1 : Fin 2) + 1 * (j 3).val)
      rw [e3, o31]; omega

/-! ## The sixteen blocks tile the array -/

/-- The point whose block holds (b, ·, ·, h): b first, then the half of the h axis. -/
def pointOf (b : Fin 8) (h : Fin 256) : Fin cfg1.N :=
  ⟨b.val * 2 + h.val / 128, by have := b.isLt; have := h.isLt; rw [show cfg1.N = 16 from N_1]; omega⟩

theorem cover3 (i : S8x64x256x256.Idx) :
    ∃ t : Fin cfg1.N, (cfg1.win 3).flush t = true ∧ i ∈ ((cfg1.win 3).blk t).view.set := by
  refine ⟨pointOf (i 0) (i 3), flush1_3 _, ?_⟩
  obtain ⟨-, -, -, -, -, -, -, -, -, -, -, -, e0, e1, e2, e3⟩ := idx1 (pointOf (i 0) (i 3))
  have ht : (pointOf (i 0) (i 3)).val = (i 0).val * 2 + (i 3).val / 128 := rfl
  show i ∈ ((View.whole main_v34).slice (win1_3.rect (pointOf (i 0) (i 3)))).set
  rw [View.set_slice_whole, Rect.mem_set_unit]
  intro a
  have h0 : (i 0).val < 8 := (i 0).isLt
  have h1 : (i 1).val < 64 := (i 1).isLt
  have h2 : (i 2).val < 256 := (i 2).isLt
  have h3 : (i 3).val < 256 := (i 3).isLt
  match a with
  | ⟨0, _⟩ =>
    show win1_3.index (pointOf (i 0) (i 3)) (0 : Fin 4) * 1 ≤ (i 0).val ∧ (i 0).val < win1_3.index (pointOf (i 0) (i 3)) (0 : Fin 4) * 1 + 1
    rw [e0, ht]; omega
  | ⟨1, _⟩ =>
    show win1_3.index (pointOf (i 0) (i 3)) (1 : Fin 4) * 64 ≤ (i 1).val ∧ (i 1).val < win1_3.index (pointOf (i 0) (i 3)) (1 : Fin 4) * 64 + 64
    rw [e1]; omega
  | ⟨2, _⟩ =>
    show win1_3.index (pointOf (i 0) (i 3)) (2 : Fin 4) * 256 ≤ (i 2).val ∧ (i 2).val < win1_3.index (pointOf (i 0) (i 3)) (2 : Fin 4) * 256 + 256
    rw [e2]; omega
  | ⟨3, _⟩ =>
    show win1_3.index (pointOf (i 0) (i 3)) (3 : Fin 4) * 128 ≤ (i 3).val ∧ (i 3).val < win1_3.index (pointOf (i 0) (i 3)) (3 : Fin 4) * 128 + 128
    rw [e3, ht]; omega

/-- The result array after the region. -/
theorem final3 (c : Dev nD) :
    (dat1 V c).arrAt 3 cfg1.N = outer (V c main_v13) (V c main_v23) (V c main_v33) :=
  (dat1 V c).arrAt_eq_of_cover 3 (outer (V c main_v13) (V c main_v23) (V c main_v33)) (fun t _ => flushed3_eq V c t) cover3

end Cert.KernelIdeal.Region1

end
-- ==== Proof.KernelRun.lean ====
/-
  The kernel program's run, read. Every weakly fair execution terminates with the result buffer holding what the
  second region's write-backs leave of its array; that array is the outer product of the three matrices the region
  is entered with; those are the three gates the host operations between the regions compute from the first region's
  three arrays, reshaped; and those arrays are the three pooled means of the argument x. So the result is `Spec.result`
  of the arguments, which end unchanged.
-/
import proofs.«165398_j78451872628994_2_alg».proof.Proof.Gen.KernelIdeal.Frame
import proofs.«165398_j78451872628994_2_alg».proof.Proof.Region0
import proofs.«165398_j78451872628994_2_alg».proof.Proof.Region1
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The run with the result buffer named -/

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last segment
    boundary's contents of it, and the arguments end as launched. -/
theorem run_named : θ_run defs (onTc (τ := τ) (main (F := F))) ⟨m, fun _ => 0, ρ⟩ (fun r => ∀ c : Dev nD,
      r.2.mem ((c.tc : Thread nD τ).loc main_v34) = W3 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v34 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Launch

/-! ## The contents at the boundaries, at the ideal values -/

section Value

open Cert.KernelIdeal.Gates Cert.KernelIdeal.Spec

variable (m : (ℓ : Loc nD τ sig) → Buf (Elt Ideal) ℓ) (ρ : Dev nD → PrngReg)

/-- After the first region its three arrays hold the pooled means of x. -/
theorem W1_v0_0 (c : Dev nD) : W1 m ρ c (Proc.devRef .tc main_v0_0) = meanC (m ((c : Thread nD τ).loc main_arg0)) :=
  (W1_arr m ρ c 1).trans (Region0.final1 (V0 m ρ) c)
theorem W1_v0_1 (c : Dev nD) : W1 m ρ c (Proc.devRef .tc main_v0_1) = meanW (m ((c : Thread nD τ).loc main_arg0)) :=
  (W1_arr m ρ c 2).trans (Region0.final2 (V0 m ρ) c)
theorem W1_v0_2 (c : Dev nD) : W1 m ρ c (Proc.devRef .tc main_v0_2) = meanH (m ((c : Thread nD τ).loc main_arg0)) :=
  (W1_arr m ρ c 3).trans (Region0.final3 (V0 m ρ) c)

/-- The first region leaves the weights and biases as launched. -/
theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg4 (c : Dev nD) : W1 m ρ c (Proc.devRef .tc main_arg4) = m ((c : Thread nD τ).loc main_arg4) := W1_of_ne m ρ c main_arg4 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)

/-- The host operations between the regions: the channel gate, of the first mean reshaped. -/
theorem V2_v13 (c : Dev nD) :
    V2 m ρ c main_v13 = gate64 (shapeCast S8x64 (meanC (m ((c : Thread nD τ).loc main_arg0))) shapeCasts_S8x1x64_S8x64)
      (m ((c : Thread nD τ).loc main_arg1)) (m ((c : Thread nD τ).loc main_arg2)) := by
  show StableHlo.after hostOps1 (W1 m ρ c) (Proc.devRef .tc main_v13) = _
  after_results
  rw [W1_v0_0, W1_arg1, W1_arg2]
  rfl

/-- The width gate, of the second mean reshaped. -/
theorem V2_v23 (c : Dev nD) :
    V2 m ρ c main_v23 = gate256 (shapeCast S8x256 (meanW (m ((c : Thread nD τ).loc main_arg0))) shapeCasts_S8x1x256_S8x256)
      (m ((c : Thread nD τ).loc main_arg3)) (m ((c : Thread nD τ).loc main_arg4)) := by
  show StableHlo.after hostOps1 (W1 m ρ c) (Proc.devRef .tc main_v23) = _
  after_results
  rw [W1_v0_1, W1_arg3, W1_arg4]
  rfl

/-- The height gate, of the third mean reshaped. -/
theorem V2_v33 (c : Dev nD) :
    V2 m ρ c main_v33 = gate256 (shapeCast S8x256 (meanH (m ((c : Thread nD τ).loc main_arg0))) shapeCasts_S8x1x256_S8x256)
      (m ((c : Thread nD τ).loc main_arg5)) (m ((c : Thread nD τ).loc main_arg6)) := by
  show StableHlo.after hostOps1 (W1 m ρ c) (Proc.devRef .tc main_v33) = _
  after_results
  rw [W1_v0_2, W1_arg5, W1_arg6]
  rfl

/-- The result buffer at the last boundary. -/
theorem W3_v34 (c : Dev nD) :
    W3 m ρ c (Proc.devRef .tc main_v34)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W3_arr m ρ c 3).trans ((Region1.final3 (V2 m ρ) c).trans ?_)
  rw [V2_v13, V2_v23, V2_v33]
  rfl

/-- The kernel's run: the result at `Spec.result` of the arguments, the arguments unchanged. -/
theorem run : θ_run defs (onTc (τ := τ) (main (F := Ideal))) ⟨m, fun _ => 0, ρ⟩ (fun r => ∀ c : Dev nD,
      r.2.mem ((c.tc : Thread nD τ).loc main_v34)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (W3_v34 m ρ c), (h c).2⟩) (run_named m ρ)

end Value

end Cert.KernelIdeal.Run

end
-- ==== Proof.Consts.lean ====
/-
  The float constants the two programs spell, as the extended reals their words denote: the zero a sum starts from,
  the divisors 65536 and 16384 of the reference's means, and the kernel's exact reciprocals 2^-16 and 2^-14; and the
  one law that joins the two sides of each mean: a sum started from zero and divided by n is the sum times 1/n, on
  every extended real.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_65536 : Ideal.ofBits .f32 0x47800000#32 = ((65536 : ℝ) : EReal) := by
  simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

theorem ofBits_inv65536 : Ideal.ofBits .f32 0x37800000#32 = ((1 / 65536 : ℝ) : EReal) := by
  simp [Ideal.ofBits, Ideal.ieee, -EReal.coe_mul]; norm_num

theorem ofBits_inv16384 : Ideal.ofBits .f32 0x38800000#32 = ((1 / 16384 : ℝ) : EReal) := by
  simp [Ideal.ofBits, Ideal.ieee, -EReal.coe_mul]; norm_num

/-- A sum started from the zero word and divided by 65536 is the sum times the word of 2^-16. -/
theorem mean_65536 (S : EReal) :
    Ideal.div (Ideal.ofBits .f32 0x00000000#32 + S) (Ideal.ofBits .f32 0x47800000#32) = S * Ideal.ofBits .f32 0x37800000#32 := by
  rw [ofBits_zero, zero_add, ofBits_65536, ofBits_inv65536, Ideal.div_coe (by norm_num : (65536 : ℝ) ≠ 0)]

/-- A sum started from the zero word and divided by 16384 is the sum times the word of 2^-14. -/
theorem mean_16384 (S : EReal) :
    Ideal.div (Ideal.ofBits .f32 0x00000000#32 + S) (Ideal.ofBits .f32 0x46800000#32) = S * Ideal.ofBits .f32 0x38800000#32 := by
  rw [ofBits_zero, zero_add, ofBits_16384, ofBits_inv16384, Ideal.div_coe (by norm_num : (16384 : ℝ) ≠ 0)]

end Cert.Consts

end
-- ==== Proof.RefValue.lean ====
/-
  The reference program's result is `Spec.result` of its arguments.
  Its last five operations place the three gates on the axes (b, c), (b, w), (b, h) and multiply, the first two
  first: the outer product at (b, c, w, h). Each gate is the shared chain applied to a mean. Each mean is one sum
  over two axes, started from zero and divided by the count: at (b, ·) the pooled sum times the exact reciprocal, which
  is the [8, 1, ·] mean of the specification with its unit axis dropped.
-/
import proofs.«165398_j78451872628994_2_alg».proof.Proof.Gen.ReferenceIdeal.Read
import proofs.«165398_j78451872628994_2_alg».proof.Proof.Spec
import proofs.«165398_j78451872628994_2_alg».proof.Proof.Consts
import Idealize.ShloMosaic.Lib.ValueLayout

noncomputable section

namespace Cert.Lib

open Idealize.ShloMosaic Idealize.ShloMosaic.ValueIdx

/-- An `[a, 1, b]` array cast to `[a, b]` reads, at `(i, j)`, the array at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    simp only [Nat.mul_one, Nat.add_zero])

end Cert.Lib

namespace Cert.ReferenceIdeal.RefValue

open Cert.ReferenceIdeal Cert.ReferenceIdeal.Gen Cert.ReferenceIdeal.Read Idealize.ShloMosaic Idealize.ShloMosaic.ValueIdx Cert.Pools
open Cert.KernelIdeal.Spec Cert.KernelIdeal.Gates

/-! ## The means -/

/-- The mean over (w, h): the sum over the two axes divided by 65536. -/
theorem ref_meanC (x0 : S8x64x256x256.Idx → EReal) :
    val_main_v2 (F := Ideal) x0 = shapeCast Cert.KernelIdeal.S8x64 (meanC x0) Cert.KernelIdeal.Facts₀.shapeCasts_S8x1x64_S8x64 := by
  funext i
  obtain ⟨b, c, rfl⟩ : ∃ (b : Fin 8) (c : Fin 64), i = ix2 b c := ⟨i 0, i 1, eq_ix2 i⟩
  refine Eq.trans ?_ (Cert.Lib.shapeCast_a1b_ab_apply (meanC x0) _ b c).symm
  show Ideal.div (Ideal.hostReduceAdd reducesTo_S8x64x256x256_S8x64_d2_3 x0 (Ideal.ofBits .f32 0x00000000#32) (ix2 b c))
      (Ideal.ofBits .f32 0x47800000#32) = sumWH x0 b c * Ideal.ofBits .f32 0x37800000#32
  rw [hostReduce_wh]
  exact Cert.Consts.mean_65536 _

/-- The mean over (c, h): the sum over the two axes divided by 16384. -/
theorem ref_meanW (x0 : S8x64x256x256.Idx → EReal) :
    val_main_v15 (F := Ideal) x0 = shapeCast Cert.KernelIdeal.S8x256 (meanW x0) Cert.KernelIdeal.Facts₀.shapeCasts_S8x1x256_S8x256 := by
  funext i
  obtain ⟨b, w, rfl⟩ : ∃ (b : Fin 8) (w : Fin 256), i = ix2 b w := ⟨i 0, i 1, eq_ix2 i⟩
  refine Eq.trans ?_ (Cert.Lib.shapeCast_a1b_ab_apply (meanW x0) _ b w).symm
  show Ideal.div (Ideal.hostReduceAdd reducesTo_S8x64x256x256_S8x256_d1_3 x0 (Ideal.ofBits .f32 0x00000000#32) (ix2 b w))
      (Ideal.ofBits .f32 0x46800000#32) = sumHC x0 b w * Ideal.ofBits .f32 0x38800000#32
  rw [hostReduce_ch]
  exact Cert.Consts.mean_16384 _

/-- The mean over (c, w): the sum over the two axes divided by 16384. -/
theorem ref_meanH (x0 : S8x64x256x256.Idx → EReal) :
    val_main_v28 (F := Ideal) x0 = shapeCast Cert.KernelIdeal.S8x256 (meanH x0) Cert.KernelIdeal.Facts₀.shapeCasts_S8x1x256_S8x256 := by
  funext i
  obtain ⟨b, h, rfl⟩ : ∃ (b : Fin 8) (h : Fin 256), i = ix2 b h := ⟨i 0, i 1, eq_ix2 i⟩
  refine Eq.trans ?_ (Cert.Lib.shapeCast_a1b_ab_apply (meanH x0) _ b h).symm
  show Ideal.div (Ideal.hostReduceAdd reducesTo_S8x64x256x256_S8x256_d1_2 x0 (Ideal.ofBits .f32 0x00000000#32) (ix2 b h))
      (Ideal.ofBits .f32 0x46800000#32) = sumWC x0 b h * Ideal.ofBits .f32 0x38800000#32
  rw [hostReduce_cw]
  exact Cert.Consts.mean_16384 _

/-! ## The gates: the shared chain, of the means -/

theorem ref_gateC (x0 : S8x64x256x256.Idx → EReal) (x1 : S64x64.Idx → EReal) (x2 : S64.Idx → EReal) :
    val_main_v12 (F := Ideal) x0 x1 x2 = gate64 (val_main_v2 (F := Ideal) x0) x1 x2 := rfl
theorem ref_gateW (x0 : S8x64x256x256.Idx → EReal) (x3 : S256x256.Idx → EReal) (x4 : S256.Idx → EReal) :
    val_main_v25 (F := Ideal) x0 x3 x4 = gate256 (val_main_v15 (F := Ideal) x0) x3 x4 := rfl
theorem ref_gateH (x0 : S8x64x256x256.Idx → EReal) (x5 : S256x256.Idx → EReal) (x6 : S256.Idx → EReal) :
    val_main_v38 (F := Ideal) x0 x5 x6 = gate256 (val_main_v28 (F := Ideal) x0) x5 x6 := rfl

/-! ## The outer product -/

theorem ref_outer (x0 : S8x64x256x256.Idx → EReal) (x1 : S64x64.Idx → EReal) (x2 : S64.Idx → EReal)
    (x3 : S256x256.Idx → EReal) (x4 : S256.Idx → EReal) (x5 : S256x256.Idx → EReal) (x6 : S256.Idx → EReal) :
    val_main_v47 (F := Ideal) x0 x1 x2 x3 x4 x5 x6
      = outer (val_main_v12 (F := Ideal) x0 x1 x2) (val_main_v25 (F := Ideal) x0 x3 x4) (val_main_v38 (F := Ideal) x0 x5 x6) := by
  funext i
  have h1 : (idx_main_v39 (idx_main_v41 (idx_main_v45 i)) : S8x64.Idx) = ix2 (i 0) (i 1) :=
    funext fun a => Fin.ext (by match a with | ⟨0, _⟩ => rfl | ⟨1, _⟩ => rfl)
  have h2 : (idx_main_v40 (idx_main_v42 (idx_main_v45 i)) : S8x256.Idx) = ix2 (i 0) (i 2) :=
    funext fun a => Fin.ext (by match a with | ⟨0, _⟩ => rfl | ⟨1, _⟩ => rfl)
  have h3 : (idx_main_v44 (idx_main_v46 i) : S8x256.Idx) = ix2 (i 0) (i 3) :=
    funext fun a => Fin.ext (by match a with | ⟨0, _⟩ => rfl | ⟨1, _⟩ => rfl)
  rw [val_main_v47_apply, val_main_v45_apply, val_main_v43_apply, val_main_v41_apply, val_main_v39_apply,
    val_main_v42_apply, val_main_v40_apply, val_main_v46_apply, val_main_v44_apply, h1, h2, h3]
  rfl

/-! ## The whole -/

theorem ref_result (x0 : S8x64x256x256.Idx → EReal) (x1 : S64x64.Idx → EReal) (x2 : S64.Idx → EReal)
    (x3 : S256x256.Idx → EReal) (x4 : S256.Idx → EReal) (x5 : S256x256.Idx → EReal) (x6 : S256.Idx → EReal) :
    val_main_v47 (F := Ideal) x0 x1 x2 x3 x4 x5 x6 = result x0 x1 x2 x3 x4 x5 x6 := by
  rw [ref_outer, ref_gateC, ref_gateW, ref_gateH, ref_meanC, ref_meanW, ref_meanH]
  rfl

end Cert.ReferenceIdeal.RefValue

end
-- ==== Proof.lean ====
/-
  A triple gate on x : [8, 64, 256, 256]: the means of x over (w, h), over (c, h) and over (c, w) go each through a
  dense layer and the logistic function, and the result is the batched outer product of the three gates,
  result[b, c, w, h] = (gc[b, c] * gw[b, w]) * gh[b, h].

  The kernel pools in one region (one grid point per b; each mean by two single-axis sums of the slab x[b], scaled by
  the exact reciprocal 2^-16 or 2^-14 of the count), computes the gates on the host, and forms the outer product in a
  second region (sixteen points: b, and a half of the h axis). The reference sums over two axes at once and divides by
  65536 or 16384. Over the extended reals the two are one function: a finite sum does not depend on its grouping or
  order (addition is commutative and associative), and division by a nonzero real n is multiplication by 1/n at every
  extended real, the infinities included; the dense layers, the logistic function and the order of the two
  multiplications are the same operations on both sides. Finiteness of the inputs is not used.

  The three frames: the two kernel programs' are the generated ones; the reference's is its run with the result dropped.
  The idealization rewrote nothing, so `preserves` is `True`.
-/
import proofs.«165398_j78451872628994_2_alg».proof.Defs
import proofs.«165398_j78451872628994_2_alg».proof.Proof.Gen.Kernel
import proofs.«165398_j78451872628994_2_alg».proof.Proof.Gen.Kernel.Skeleton
import proofs.«165398_j78451872628994_2_alg».proof.Proof.Gen.Kernel.Launch
import proofs.«165398_j78451872628994_2_alg».proof.Proof.Gen.Kernel.Points
import proofs.«165398_j78451872628994_2_alg».proof.Proof.Gen.Kernel.Frame
import proofs.«165398_j78451872628994_2_alg».proof.Proof.Gen.KernelIdeal
import proofs.«165398_j78451872628994_2_alg».proof.Proof.Gen.KernelIdeal.Skeleton
import proofs.«165398_j78451872628994_2_alg».proof.Proof.Gen.KernelIdeal.Launch
import proofs.«165398_j78451872628994_2_alg».proof.Proof.Gen.KernelIdeal.Points
import proofs.«165398_j78451872628994_2_alg».proof.Proof.Gen.KernelIdeal.Frame
import proofs.«165398_j78451872628994_2_alg».proof.Proof.Gen.ReferenceIdeal
import proofs.«165398_j78451872628994_2_alg».proof.Proof.Gen.ReferenceIdeal.Run
import proofs.«165398_j78451872628994_2_alg».proof.Proof.Gen.ReferenceIdeal.Read
import proofs.«165398_j78451872628994_2_alg».proof.Proof.Gen.Pre_finite_inputs
import proofs.«165398_j78451872628994_2_alg».proof.Proof.KernelRun
import proofs.«165398_j78451872628994_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the one function `Spec.result` of arguments that agree. -/
theorem algebraic : Cert.algebraic_KernelIdeal_ReferenceIdeal := by
  intro m ρ m' ρ' _ hagree
  refine ⟨fun c => Cert.KernelIdeal.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  refine (Cert.ReferenceIdeal.Read.val_main_v47_eq (F := Ideal) _ _ _ _ _ _ _).trans ?_
  rw [Cert.ReferenceIdeal.RefValue.ref_result, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
